-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32x4096x11 : Shape := ⟨3, ![32, 4096, 11]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S32x4096x11 : S_.BroadcastsInDim S32x4096x11 (![] : Fin 0 → Fin S32x4096x11.rank)
  reducesTo_S32x4096x11_S_d0_1_2 : S32x4096x11.ReducesTo [0, 1, 2] S_

variable [Facts]

def fn {F : FTy → Type} [FloatOps F] (main_arg0 : FVec F S32x4096x256 .f32) (main_arg1 : FVec F S32x4096x11 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S32x4096x11 .f32 := Host.absf main_arg1
  let main_cst_0 : FVec F S_ .f32 := constant S_ .f32 0x7F800000#32
  let main_v5 : FVec F S32x4096x11 .f32 := broadcastInDim S32x4096x11 ![] bcast_S_S32x4096x11 main_cst_0
  let main_v6 : IVec S32x4096x11 1 := cmpf .olt main_v4 main_v5
  let main_c_1 : IVec S_ 1 := constantI S_ 1 1#1
  let main_v7 : IVec S_ 1 := (fun x v => Host.reduce IntOp.andi x v reducesTo_S32x4096x11_S_d0_1_2 h_S_) main_v6 main_c_1
  let main_v8 : IVec S_ 1 := andi main_v3 main_v7
  main_v8
-- ==== Kernel.lean ====
abbrev S32x4096x256 : Shape := ⟨3, ![32, 4096, 256]⟩
abbrev S32x4096x11 : Shape := ⟨3, ![32, 4096, 11]⟩
abbrev S1x4096x256 : Shape := ⟨3, ![1, 4096, 256]⟩
abbrev S1x4096x11 : Shape := ⟨3, ![1, 4096, 11]⟩
abbrev S4096x256 : Shape := ⟨2, ![4096, 256]⟩
abbrev S4096x11 : Shape := ⟨2, ![4096, 11]⟩
abbrev S5x256 : Shape := ⟨2, ![5, 256]⟩
abbrev S4101x256 : Shape := ⟨2, ![4101, 256]⟩
abbrev S4106x256 : Shape := ⟨2, ![4106, 256]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x4096x256, .f32⟩
  | .hbm, ⟨1, _⟩ => ⟨S32x4096x11, .f32⟩
  | .hbm, ⟨2, _⟩ => ⟨S32x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x11, .f32⟩
  | .local _ .vmem, ⟨3, _⟩ => ⟨S1x4096x11, .f32⟩
  | .local _ .vmem, ⟨4, _⟩ => ⟨S1x4096x256, .f32⟩
  | .local _ .vmem, ⟨5, _⟩ => ⟨S1x4096x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x4096x11_S1x4096x11_0_0_0 : ∀ a, (![0, 0, 0] : Fin 3 → Nat) a + S1x4096x11.size a ≤ S1x4096x11.size a
  h_S1x4096x11 : 0 < S1x4096x11.numel
  shapeCasts_S1x4096x11_S4096x11 : S1x4096x11.ShapeCasts S4096x11
  concatenates_S5x256_S4096x256_S4101x256_d0 : Shape.Concatenates [S5x256, S4096x256] S4101x256 0
  concatenates_S4101x256_S5x256_S4106x256_d0 : Shape.Concatenates [S4101x256, S5x256] S4106x256 0
  slices_S4106x256_o0_0_S4096x256 : S4106x256.Slices ![0, 0] S4096x256
  slices_S4096x11_o0_0_S4096x1 : S4096x11.Slices ![0, 0] S4096x1
  broadcasts_S4096x1_S4096x256 : S4096x1.Broadcasts S4096x256
  slices_S4106x256_o1_0_S4096x256 : S4106x256.Slices ![1, 0] S4096x256
  slices_S4096x11_o0_1_S4096x1 : S4096x11.Slices ![0, 1] S4096x1
  slices_S4106x256_o2_0_S4096x256 : S4106x256.Slices ![2, 0] S4096x256
  slices_S4096x11_o0_2_S4096x1 : S4096x11.Slices ![0, 2] S4096x1
  slices_S4106x256_o3_0_S4096x256 : S4106x256.Slices ![3, 0] S4096x256
  slices_S4096x11_o0_3_S4096x1 : S4096x11.Slices ![0, 3] S4096x1
  slices_S4106x256_o4_0_S4096x256 : S4106x256.Slices ![4, 0] S4096x256
  slices_S4096x11_o0_4_S4096x1 : S4096x11.Slices ![0, 4] S4096x1
  slices_S4106x256_o5_0_S4096x256 : S4106x256.Slices ![5, 0] S4096x256
  slices_S4096x11_o0_5_S4096x1 : S4096x11.Slices ![0, 5] S4096x1
  slices_S4106x256_o6_0_S4096x256 : S4106x256.Slices ![6, 0] S4096x256
  slices_S4096x11_o0_6_S4096x1 : S4096x11.Slices ![0, 6] S4096x1
  slices_S4106x256_o7_0_S4096x256 : S4106x256.Slices ![7, 0] S4096x256
  slices_S4096x11_o0_7_S4096x1 : S4096x11.Slices ![0, 7] S4096x1
  slices_S4106x256_o8_0_S4096x256 : S4106x256.Slices ![8, 0] S4096x256
  slices_S4096x11_o0_8_S4096x1 : S4096x11.Slices ![0, 8] S4096x1
  slices_S4106x256_o9_0_S4096x256 : S4106x256.Slices ![9, 0] S4096x256
  slices_S4096x11_o0_9_S4096x1 : S4096x11.Slices ![0, 9] S4096x1
  slices_S4106x256_o10_0_S4096x256 : S4106x256.Slices ![10, 0] S4096x256
  slices_S4096x11_o0_10_S4096x1 : S4096x11.Slices ![0, 10] S4096x1
  shapeCasts_S4096x256_S1x4096x256 : S4096x256.ShapeCasts S1x4096x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S32x4096x256.size a
  hwx0_0 : ∀ i : grid0.Coords, EltTy.bits .f32 = 32 ∨ (Rect.block (s := S32x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x11.size a ≤ S32x4096x11.size a
  hwx0_1 : ∀ i : grid0.Coords, EltTy.bits .f32 = 32 ∨ (Rect.block (s := S32x4096x11) S1x4096x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S32x4096x256.size a
  hwx0_2 : ∀ i : grid0.Coords, EltTy.bits .f32 = 32 ∨ (Rect.block (s := S32x4096x256) S1x4096x256.size (cc0_transform_2 i) (hinb0_2 i)).WholeWords (EltTy.packing .f32)

variable [Facts₀]

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x4096x11 : Shape := ⟨3, ![32, 4096, 11]⟩
abbrev S_ : Shape := ⟨0, ![]⟩
abbrev S32x4106x256 : Shape := ⟨3, ![32, 4106, 256]⟩
abbrev S32x4096x1 : Shape := ⟨3, ![32, 4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x4096x11, .f32⟩
  | .hbm, ⟨2, _⟩ => ⟨S_, .i32⟩
  | .hbm, ⟨3, _⟩ => ⟨S_, .f32⟩
  | .hbm, ⟨4, _⟩ => ⟨S32x4106x256, .f32⟩
  | .hbm, ⟨5, _⟩ => ⟨S_, .f32⟩
  | .hbm, ⟨6, _⟩ => ⟨S32x4096x256, .f32⟩
  | .hbm, ⟨7, _⟩ => ⟨S32x4096x256, .f32⟩
  | .hbm, ⟨8, _⟩ => ⟨S32x4096x1, .f32⟩
  | .hbm, ⟨9, _⟩ => ⟨S32x4096x256, .f32⟩
  | .hbm, ⟨10, _⟩ => ⟨S32x4096x256, .f32⟩
  | .hbm, ⟨11, _⟩ => ⟨S32x4096x256, .f32⟩
  | .hbm, ⟨12, _⟩ => ⟨S32x4096x256, .f32⟩
  | .hbm, ⟨13, _⟩ => ⟨S32x4096x1, .f32⟩
  | .hbm, ⟨14, _⟩ => ⟨S32x4096x256, .f32⟩
  | .hbm, ⟨15, _⟩ => ⟨S32x4096x256, .f32⟩
  | .hbm, ⟨16, _⟩ => ⟨S32x4096x256, .f32⟩
  | .hbm, ⟨17, _⟩ => ⟨S32x4096x256, .f32⟩
  | .hbm, ⟨18, _⟩ => ⟨S32x4096x1, .f32⟩
  | .hbm, ⟨19, _⟩ => ⟨S32x4096x256, .f32⟩
  | .hbm, ⟨20, _⟩ => ⟨S32x4096x256, .f32⟩
  | .hbm, ⟨21, _⟩ => ⟨S32x4096x256, .f32⟩
  | .hbm, ⟨22, _⟩ => ⟨S32x4096x256, .f32⟩
  | .hbm, ⟨23, _⟩ => ⟨S32x4096x1, .f32⟩
  | .hbm, ⟨24, _⟩ => ⟨S32x4096x256, .f32⟩
  | .hbm, ⟨25, _⟩ => ⟨S32x4096x256, .f32⟩
  | .hbm, ⟨26, _⟩ => ⟨S32x4096x256, .f32⟩
  | .hbm, ⟨27, _⟩ => ⟨S32x4096x256, .f32⟩
  | .hbm, ⟨28, _⟩ => ⟨S32x4096x1, .f32⟩
  | .hbm, ⟨29, _⟩ => ⟨S32x4096x256, .f32⟩
  | .hbm, ⟨30, _⟩ => ⟨S32x4096x256, .f32⟩
  | .hbm, ⟨31, _⟩ => ⟨S32x4096x256, .f32⟩
  | .hbm, ⟨32, _⟩ => ⟨S32x4096x256, .f32⟩
  | .hbm, ⟨33, _⟩ => ⟨S32x4096x1, .f32⟩
  | .hbm, ⟨34, _⟩ => ⟨S32x4096x256, .f32⟩
  | .hbm, ⟨35, _⟩ => ⟨S32x4096x256, .f32⟩
  | .hbm, ⟨36, _⟩ => ⟨S32x4096x256, .f32⟩
  | .hbm, ⟨37, _⟩ => ⟨S32x4096x256, .f32⟩
  | .hbm, ⟨38, _⟩ => ⟨S32x4096x1, .f32⟩
  | .hbm, ⟨39, _⟩ => ⟨S32x4096x256, .f32⟩
  | .hbm, ⟨40, _⟩ => ⟨S32x4096x256, .f32⟩
  | .hbm, ⟨41, _⟩ => ⟨S32x4096x256, .f32⟩
  | .hbm, ⟨42, _⟩ => ⟨S32x4096x256, .f32⟩
  | .hbm, ⟨43, _⟩ => ⟨S32x4096x1, .f32⟩
  | .hbm, ⟨44, _⟩ => ⟨S32x4096x256, .f32⟩
  | .hbm, ⟨45, _⟩ => ⟨S32x4096x256, .f32⟩
  | .hbm, ⟨46, _⟩ => ⟨S32x4096x256, .f32⟩
  | .hbm, ⟨47, _⟩ => ⟨S32x4096x256, .f32⟩
  | .hbm, ⟨48, _⟩ => ⟨S32x4096x1, .f32⟩
  | .hbm, ⟨49, _⟩ => ⟨S32x4096x256, .f32⟩
  | .hbm, ⟨50, _⟩ => ⟨S32x4096x256, .f32⟩
  | .hbm, ⟨51, _⟩ => ⟨S32x4096x256, .f32⟩
  | .hbm, ⟨52, _⟩ => ⟨S32x4096x256, .f32⟩
  | .hbm, ⟨53, _⟩ => ⟨S32x4096x1, .f32⟩
  | .hbm, ⟨54, _⟩ => ⟨S32x4096x256, .f32⟩
  | .hbm, ⟨55, _⟩ => ⟨S32x4096x256, .f32⟩
  | .hbm, ⟨56, _⟩ => ⟨S32x4096x256, .f32⟩
  | .hbm, ⟨57, _⟩ => ⟨S32x4096x256, .f32⟩
  | .hbm, ⟨58, _⟩ => ⟨S32x4096x1, .f32⟩
  | .hbm, ⟨59, _⟩ => ⟨S32x4096x256, .f32⟩
  | .hbm, ⟨60, _⟩ => ⟨S32x4096x256, .f32⟩
  | .hbm, ⟨61, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩

abbrev nD : Nat := 1
abbrev τ : Topo := Topo.v7x

variable {F : FTy → Type} [FloatOps F]

class Facts₀ : Prop where
  pads_S32x4096x256_S32x4106x256_000_550_000 : S32x4096x256.Pads (![0, 5, 0] : Fin 3 → Nat) ![0, 5, 0] ![0, 0, 0] S32x4106x256
  h_S_ : 0 < S_.numel
  bcast_S_S32x4096x256 : S_.BroadcastsInDim S32x4096x256 (![] : Fin 0 → Fin S32x4096x256.rank)
  slices_S32x4106x256_S32x4096x256_0_0_0 : S32x4106x256.Slices ![0, 0, 0] S32x4096x256
  slices_S32x4096x11_S32x4096x1_0_0_0 : S32x4096x11.Slices ![0, 0, 0] S32x4096x1
  bcast_S32x4096x1_S32x4096x256_0_1_2 : S32x4096x1.BroadcastsInDim S32x4096x256 (![0, 1, 2] : Fin 3 → Fin S32x4096x256.rank)
  slices_S32x4106x256_S32x4096x256_0_1_0 : S32x4106x256.Slices ![0, 1, 0] S32x4096x256
  slices_S32x4096x11_S32x4096x1_0_0_1 : S32x4096x11.Slices ![0, 0, 1] S32x4096x1
  slices_S32x4106x256_S32x4096x256_0_2_0 : S32x4106x256.Slices ![0, 2, 0] S32x4096x256
  slices_S32x4096x11_S32x4096x1_0_0_2 : S32x4096x11.Slices ![0, 0, 2] S32x4096x1
  slices_S32x4106x256_S32x4096x256_0_3_0 : S32x4106x256.Slices ![0, 3, 0] S32x4096x256
  slices_S32x4096x11_S32x4096x1_0_0_3 : S32x4096x11.Slices ![0, 0, 3] S32x4096x1
  slices_S32x4106x256_S32x4096x256_0_4_0 : S32x4106x256.Slices ![0, 4, 0] S32x4096x256
  slices_S32x4096x11_S32x4096x1_0_0_4 : S32x4096x11.Slices ![0, 0, 4] S32x4096x1
  slices_S32x4106x256_S32x4096x256_0_5_0 : S32x4106x256.Slices ![0, 5, 0] S32x4096x256
  slices_S32x4096x11_S32x4096x1_0_0_5 : S32x4096x11.Slices ![0, 0, 5] S32x4096x1
  slices_S32x4106x256_S32x4096x256_0_6_0 : S32x4106x256.Slices ![0, 6, 0] S32x4096x256
  slices_S32x4096x11_S32x4096x1_0_0_6 : S32x4096x11.Slices ![0, 0, 6] S32x4096x1
  slices_S32x4106x256_S32x4096x256_0_7_0 : S32x4106x256.Slices ![0, 7, 0] S32x4096x256
  slices_S32x4096x11_S32x4096x1_0_0_7 : S32x4096x11.Slices ![0, 0, 7] S32x4096x1
  slices_S32x4106x256_S32x4096x256_0_8_0 : S32x4106x256.Slices ![0, 8, 0] S32x4096x256
  slices_S32x4096x11_S32x4096x1_0_0_8 : S32x4096x11.Slices ![0, 0, 8] S32x4096x1
  slices_S32x4106x256_S32x4096x256_0_9_0 : S32x4106x256.Slices ![0, 9, 0] S32x4096x256
  slices_S32x4096x11_S32x4096x1_0_0_9 : S32x4096x11.Slices ![0, 0, 9] S32x4096x1
  slices_S32x4106x256_S32x4096x256_0_10_0 : S32x4106x256.Slices ![0, 10, 0] S32x4096x256
  slices_S32x4096x11_S32x4096x1_0_0_10 : S32x4096x11.Slices ![0, 0, 10] S32x4096x1

variable [Facts₀]

class Facts : Prop extends Facts₀ where

variable [Facts]
-- ==== Proof.WindowSum.lean ====
/-
  The sliding-window weighted sum, as one function of the two arrays.

  For states `x : [32, 4096, 256]` and weights `w : [32, 4096, 11]`, pad every batch of `x` along its row axis with
  five rows of a value `z` before row 0 and five after row 4095 (4106 rows in all), and put

      out[b, r, c] = ((…((0 + pad[b, r + 0, c] · w[b, r, 0]) + pad[b, r + 1, c] · w[b, r, 1]) + …) + pad[b, r + 10, c] · w[b, r, 10]),

  the eleven products added from the left onto the zero word, in the order of the window. Nothing here depends on
  what the float operations are: the function is stated over any instance, the padding value a parameter.
-/
import Idealize.ShloMosaic.Lib.ValueIdx

noncomputable section

namespace Cert.WindowSum

open Idealize.ShloMosaic Idealize.ShloMosaic.ValueIdx

variable {F : FTy → Type} [FloatOps F]

/-- The states' shape. -/
abbrev SX : Shape := ⟨3, ![32, 4096, 256]⟩
/-- The weights' shape. -/
abbrev SW : Shape := ⟨3, ![32, 4096, 11]⟩

/-- Row `s` (of 4106) of batch `b` of the padded states, at column `c`: rows 5 … 4100 are the states' rows
    0 … 4095, every other row holds the padding value. -/
def padRow (z : F .f32) (x : SX.Idx → F .f32) (b : Fin 32) (s : Nat) (c : Fin 256) : F .f32 :=
  if h : 5 ≤ s ∧ s < 4101 then x (ix3 b (⟨s - 5, by omega⟩ : Fin 4096) c) else z

/-- The window's `i`-th product at output entry `(b, r, c)`: padded row `r + i` against weight `i` of row `r`. -/
def tap (z : F .f32) (x : SX.Idx → F .f32) (w : SW.Idx → F .f32) (b : Fin 32) (r : Fin 4096) (c : Fin 256)
    (i : Fin 11) : F .f32 :=
  FloatOps.mulf (padRow z x b (r.val + i.val) c) (w (ix3 b r i))

/-- The eleven products added from the left onto the zero word. -/
def windowAt (z : F .f32) (x : SX.Idx → F .f32) (w : SW.Idx → F .f32) (b : Fin 32) (r : Fin 4096) (c : Fin 256) :
    F .f32 :=
  FloatOps.addf (FloatOps.addf (FloatOps.addf (FloatOps.addf (FloatOps.addf (FloatOps.addf (FloatOps.addf (FloatOps.addf (FloatOps.addf (FloatOps.addf (FloatOps.addf (FloatOps.ofBits .f32 0x00000000#32) (tap z x w b r c ⟨0, by omega⟩)) (tap z x w b r c ⟨1, by omega⟩)) (tap z x w b r c ⟨2, by omega⟩)) (tap z x w b r c ⟨3, by omega⟩)) (tap z x w b r c ⟨4, by omega⟩)) (tap z x w b r c ⟨5, by omega⟩)) (tap z x w b r c ⟨6, by omega⟩)) (tap z x w b r c ⟨7, by omega⟩)) (tap z x w b r c ⟨8, by omega⟩)) (tap z x w b r c ⟨9, by omega⟩)) (tap z x w b r c ⟨10, by omega⟩)

/-- The whole output array. -/
def windowSum (z : F .f32) (x : SX.Idx → F .f32) (w : SW.Idx → F .f32) : SX.Idx → F .f32 :=
  fun j => windowAt z x w (j 0) (j 1) (j 2)

/-- An entry of the weights is the entry with the same three coordinates. -/
theorem weight_at (w : SW.Idx → F .f32) (j : SW.Idx) (b : Fin 32) (r : Fin 4096) (i : Fin 11)
    (h0 : (j 0).val = b.val) (h1 : (j 1).val = r.val) (h2 : (j 2).val = i.val) : w j = w (ix3 b r i) :=
  congrArg w (funext fun a => match a with
    | ⟨0, _⟩ => Fin.ext h0
    | ⟨1, _⟩ => Fin.ext h1
    | ⟨2, _⟩ => Fin.ext h2)

/-- The output at an index is the window at the index's coordinates, whatever index has them. -/
theorem windowSum_at (z : F .f32) (x : SX.Idx → F .f32) (w : SW.Idx → F .f32) (j : SX.Idx) (b : Fin 32) (r : Fin 4096)
    (c : Fin 256) (h0 : (j 0).val = b.val) (h1 : (j 1).val = r.val) (h2 : (j 2).val = c.val) :
    windowSum z x w j = windowAt z x w b r c := by
  have e0 : (j 0 : Fin 32) = b := Fin.ext h0
  have e1 : (j 1 : Fin 4096) = r := Fin.ext h1
  have e2 : (j 2 : Fin 256) = c := Fin.ext h2
  unfold windowSum
  rw [e0, e1, e2]

end Cert.WindowSum

end
-- ==== Proof.KernelBlock.lean ====
/-
  One block of the kernel's output is one batch of the window sum.

  The kernel's body, on a batch's states `P0 : [1, 4096, 256]` and weights `P1 : [1, 4096, 11]`, puts five rows of the
  converted integer zero before the states and five after (two concatenations along the row axis), and adds onto a
  zero array, eleven times, the rows `i … i + 4095` of that padded array times column `i` of the weights repeated along
  the lanes. The generated value leg has the stored block as one function of the padded array and the weights, index
  by index; here the padded array is read at an index (below row 5 and from row 4101 on the padding value, between
  them the states five rows up), and with it the block's entry `(0, r, c)` is the window at `(b, r, c)` of any pair of
  arrays whose batch `b` the two blocks are.
-/
import proofs.«122439_j21328807592051_1_alg».proof.Proof.Gen.KernelIdeal.Value
import proofs.«122439_j21328807592051_1_alg».proof.Proof.WindowSum
import Idealize.ShloMosaic.Lib.ValueLayout

noncomputable section

namespace Cert.KernelIdeal.Window

open Cert.KernelIdeal Cert.KernelIdeal.Gen Cert.KernelIdeal.Value Idealize.ShloMosaic Idealize.ShloMosaic.ValueIdx
open Cert.WindowSum

variable {F : FTy → Type} [FloatOps F]

/-- The kernel's padding value: the integer zero converted to a float by the scalar unit. -/
abbrev zKernel : F .f32 := Scalar.sitofp .f32 (0#32 : BitVec 32)

/-- THE PADDED BLOCK at an index: the two concatenations put the padding value on rows 0 … 4 and 4101 … 4105 and the
    states' row `s - 5` on row `s` between them — the padded row of the window sum, for any array `X` whose batch `b`
    the block is. -/
theorem pay3_read (P0 : Vec F S1x4096x256 .f32) (X : SX.Idx → F .f32) (b : Fin 32)
    (h0 : ∀ (r : Fin 4096) (c : Fin 256), P0 (ix3 (0 : Fin 1) r c) = X (ix3 b r c))
    (j : S4106x256.Idx) (s : Nat) (c : Fin 256) (hs : (j 0).val = s) (hc : (j 1).val = c.val) :
    k0_pay3 P0 j = padRow (zKernel (F := F)) X b s c := by
  have hj : (j 0).val < 4106 := (j 0).isLt
  unfold padRow
  show concatenate S4106x256 0 [⟨S4101x256, concatenate S4101x256 0 [⟨S5x256, broadcast S5x256 (zKernel (F := F))⟩,
      ⟨S4096x256, shapeCast S4096x256 P0 shapeCasts_S1x4096x256_S4096x256⟩] concatenates_S5x256_S4096x256_S4101x256_d0⟩,
      ⟨S5x256, broadcast S5x256 (zKernel (F := F))⟩] concatenates_S4101x256_S5x256_S4106x256_d0 j = _
  by_cases hA : s < 4101
  · refine (concatenate_pair_apply_left 0 _ _ concatenates_S4101x256_S5x256_S4106x256_d0 j rfl
      (ix2 (⟨s, hA⟩ : Fin 4101) c) (fun a => ?_)).trans ?_
    · match a with
      | ⟨0, _⟩ => exact hs.symm
      | ⟨1, _⟩ => exact hc.symm
    by_cases hB : 5 ≤ s
    · rw [dif_pos ⟨hB, hA⟩]
      refine (concatenate_pair_apply_right 0 _ _ concatenates_S5x256_S4096x256_S4101x256_d0 (ix2 (⟨s, hA⟩ : Fin 4101) c)
        rfl rfl (ix2 (⟨s - 5, by omega⟩ : Fin 4096) c) (fun a ha => ?_) ?_).trans ?_
      · match a with
        | ⟨0, _⟩ => exact absurd rfl ha
        | ⟨1, _⟩ => rfl
      · show (s - 5) + 5 = s; omega
      · exact (shapeCast_1ab_ab_apply P0 shapeCasts_S1x4096x256_S4096x256 _ c).trans (h0 _ c)
    · rw [dif_neg (fun h => hB h.1)]
      exact concatenate_pair_apply_left 0 _ _ concatenates_S5x256_S4096x256_S4101x256_d0 (ix2 (⟨s, hA⟩ : Fin 4101) c) rfl
        (ix2 (⟨s, by omega⟩ : Fin 5) c) (fun a => match a with | ⟨0, _⟩ => rfl | ⟨1, _⟩ => rfl)
  · rw [dif_neg (fun h => hA h.2)]
    exact concatenate_pair_apply_right 0 _ _ concatenates_S4101x256_S5x256_S4106x256_d0 j rfl rfl
      (ix2 (⟨s - 4101, by omega⟩ : Fin 5) c)
      (fun a ha => match a with | ⟨0, _⟩ => absurd rfl ha | ⟨1, _⟩ => hc.symm)
      (by show (s - 4101) + 4101 = (j 0).val; omega)

/-- One product of the body's sum is the window's product: the padded block at a row-shifted index against the
    weights' block at the index with the window position on the last axis. -/
theorem tap_block (P0 : Vec F S1x4096x256 .f32) (P1 : Vec F S1x4096x11 .f32) (X : SX.Idx → F .f32) (W : SW.Idx → F .f32)
    (b : Fin 32) (h0 : ∀ (r : Fin 4096) (c : Fin 256), P0 (ix3 (0 : Fin 1) r c) = X (ix3 b r c))
    (h1 : ∀ (r : Fin 4096) (i : Fin 11), P1 (ix3 (0 : Fin 1) r i) = W (ix3 b r i))
    (j0 : S4106x256.Idx) (j1 : S1x4096x11.Idx) (r : Fin 4096) (c : Fin 256) (i : Fin 11)
    (hs : (j0 0).val = r.val + i.val) (hc : (j0 1).val = c.val) (wr : (j1 1).val = r.val) (wi : (j1 2).val = i.val) :
    FloatOps.mulf (k0_pay3 P0 j0) (P1 j1) = tap (zKernel (F := F)) X W b r c i := by
  unfold tap
  have e : j1 = ix3 (0 : Fin 1) r i := funext fun a => match a with
    | ⟨0, _⟩ => Fin.ext (Nat.lt_one_iff.mp (j1 0).isLt)
    | ⟨1, _⟩ => Fin.ext wr
    | ⟨2, _⟩ => Fin.ext wi
  rw [pay3_read P0 X b h0 j0 (r.val + i.val) c hs hc, e, h1]

/-- THE BLOCK's entry `(0, r, c)`, as the value leg states it, is the window at `(b, r, c)`. -/
theorem block_eq (P0 : Vec F S1x4096x256 .f32) (P1 : Vec F S1x4096x11 .f32) (X : SX.Idx → F .f32) (W : SW.Idx → F .f32)
    (b : Fin 32) (h0 : ∀ (r : Fin 4096) (c : Fin 256), P0 (ix3 (0 : Fin 1) r c) = X (ix3 b r c))
    (h1 : ∀ (r : Fin 4096) (i : Fin 11), P1 (ix3 (0 : Fin 1) r i) = W (ix3 b r i))
    (y : S1x4096x256.Idx) (r : Fin 4096) (c : Fin 256) (hr : (y 1).val = r.val) (hc : (y 2).val = c.val) :
    E2 P0 P1 y = windowAt (zKernel (F := F)) X W b r c := by
  unfold windowAt
  rw [← tap_block P0 P1 X W b h0 h1 (ix2_0 y) (ix2_1 y) r c ⟨0, by omega⟩ (by show (y 1).val = r.val + 0; omega) (by show (y 2).val = c.val; exact hc) (by show (y 1).val = r.val; exact hr) rfl,
    ← tap_block P0 P1 X W b h0 h1 (ix2_2 y) (ix2_3 y) r c ⟨1, by omega⟩ (by show (y 1).val + 1 = r.val + 1; omega) (by show (y 2).val = c.val; exact hc) (by show (y 1).val = r.val; exact hr) rfl,
    ← tap_block P0 P1 X W b h0 h1 (ix2_4 y) (ix2_5 y) r c ⟨2, by omega⟩ (by show (y 1).val + 2 = r.val + 2; omega) (by show (y 2).val = c.val; exact hc) (by show (y 1).val = r.val; exact hr) rfl,
    ← tap_block P0 P1 X W b h0 h1 (ix2_6 y) (ix2_7 y) r c ⟨3, by omega⟩ (by show (y 1).val + 3 = r.val + 3; omega) (by show (y 2).val = c.val; exact hc) (by show (y 1).val = r.val; exact hr) rfl,
    ← tap_block P0 P1 X W b h0 h1 (ix2_8 y) (ix2_9 y) r c ⟨4, by omega⟩ (by show (y 1).val + 4 = r.val + 4; omega) (by show (y 2).val = c.val; exact hc) (by show (y 1).val = r.val; exact hr) rfl,
    ← tap_block P0 P1 X W b h0 h1 (ix2_10 y) (ix2_11 y) r c ⟨5, by omega⟩ (by show (y 1).val + 5 = r.val + 5; omega) (by show (y 2).val = c.val; exact hc) (by show (y 1).val = r.val; exact hr) rfl,
    ← tap_block P0 P1 X W b h0 h1 (ix2_12 y) (ix2_13 y) r c ⟨6, by omega⟩ (by show (y 1).val + 6 = r.val + 6; omega) (by show (y 2).val = c.val; exact hc) (by show (y 1).val = r.val; exact hr) rfl,
    ← tap_block P0 P1 X W b h0 h1 (ix2_14 y) (ix2_15 y) r c ⟨7, by omega⟩ (by show (y 1).val + 7 = r.val + 7; omega) (by show (y 2).val = c.val; exact hc) (by show (y 1).val = r.val; exact hr) rfl,
    ← tap_block P0 P1 X W b h0 h1 (ix2_16 y) (ix2_17 y) r c ⟨8, by omega⟩ (by show (y 1).val + 8 = r.val + 8; omega) (by show (y 2).val = c.val; exact hc) (by show (y 1).val = r.val; exact hr) rfl,
    ← tap_block P0 P1 X W b h0 h1 (ix2_18 y) (ix2_19 y) r c ⟨9, by omega⟩ (by show (y 1).val + 9 = r.val + 9; omega) (by show (y 2).val = c.val; exact hc) (by show (y 1).val = r.val; exact hr) rfl,
    ← tap_block P0 P1 X W b h0 h1 (ix2_20 y) (ix2_21 y) r c ⟨10, by omega⟩ (by show (y 1).val + 10 = r.val + 10; omega) (by show (y 2).val = c.val; exact hc) (by show (y 1).val = r.val; exact hr) rfl]

end Cert.KernelIdeal.Window

end
-- ==== Proof.KernelArray.lean ====
/-
  From the blocks to the array: the kernel's result is the window sum.

  The grid has 32 points, one per batch: at point `t` each of the three windows' blocks is batch `t` of its array, whole
  (block index `(t, 0, 0)`, decided over the grid). So the two input blocks at `t` are batch `t` of the arguments, what the
  body leaves in the output block is batch `t` of the window sum, the 32 output blocks tile the result array, and the
  array after the run is the window sum of the two arguments.
-/
import proofs.«122439_j21328807592051_1_alg».proof.Proof.KernelBlock
import Idealize.ShloMosaic.Lib.Pipeline.Value

noncomputable section

namespace Cert.KernelIdeal.Window

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.WindowSum

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- The three index maps, decided over the 32 grid points: every window's block at point `t` has block index
    `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A grid point as a batch number. -/
def batch (t : Fin cfg0.N) : Fin 32 := ⟨t.val, by have h := t.isLt; have hN : cfg0.N = 32 := N_0; omega⟩

/-- The states' block at point `t` is batch `t` of the states. -/
theorem states_block (c : Dev nD) (t : Fin cfg0.N) (r : Fin 4096) (cc : Fin 256) :
    (iblk m c 0 t : Vec F S1x4096x256 .f32) (ix3 (0 : Fin 1) r cc)
      = (V m c main_arg0 : SX.Idx → F .f32) (ix3 (batch t) r cc) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val; omega
  | ⟨1, _⟩ => show win0_0.index t (1 : Fin 3) * 4096 + 1 * r.val = r.val; omega
  | ⟨2, _⟩ => show win0_0.index t (2 : Fin 3) * 256 + 1 * cc.val = cc.val; omega

/-- The weights' block at point `t` is batch `t` of the weights. -/
theorem weights_block (c : Dev nD) (t : Fin cfg0.N) (r : Fin 4096) (i : Fin 11) :
    (iblk m c 1 t : Vec F S1x4096x11 .f32) (ix3 (0 : Fin 1) r i)
      = (V m c main_arg1 : SW.Idx → F .f32) (ix3 (batch t) r i) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val; omega
  | ⟨1, _⟩ => show win0_1.index t (1 : Fin 3) * 4096 + 1 * r.val = r.val; omega
  | ⟨2, _⟩ => show win0_1.index t (2 : Fin 3) * 11 + 1 * i.val = i.val; omega

/-- WHAT POINT `t` WRITES BACK is block `t` of the window sum of the argument arrays as the region finds them. -/
theorem flushed_eq (c : Dev nD) (t : Fin cfg0.N) :
    (dats m 0 c).flushed 2 t
      = ((cfg0.win 2).blk t).view.read (Elt F) (windowSum (zKernel (F := F)) (V m c main_arg0) (V m c main_arg1)) := by
  obtain ⟨-, -, -, -, -, -, e0, e1, e2⟩ := idx_facts t
  rw [flushed2]
  funext y
  have hy0 : (y 0).val < 1 := (y 0).isLt
  have hy1 : (y 1).val < 4096 := (y 1).isLt
  have hy2 : (y 2).val < 256 := (y 2).isLt
  show out0_2 (iblk m c 0 t) (iblk m c 1 t) y
      = windowSum (zKernel (F := F)) (V m c main_arg0) (V m c main_arg1) (((cfg0.win 2).blk t).view.emb y)
  have e : out0_2 (iblk m c 0 t) (iblk m c 1 t) y = E2 (iblk m c 0 t) (iblk m c 1 t) y := by
    unfold out0_2
    rw [View.ld_unit_zero (S := S1x4096x256) zero3, View.ld_unit_zero (S := S1x4096x11) zero3]
    exact canon2_eq (iblk m c 0 t) (iblk m c 1 t) y
  rw [e, windowSum_at (zKernel (F := F)) (V m c main_arg0) (V m c main_arg1) (((cfg0.win 2).blk t).view.emb y)
    (batch t) (⟨(y 1).val, hy1⟩ : Fin 4096) (⟨(y 2).val, hy2⟩ : Fin 256)
    (by show win0_2.index t (0 : Fin 3) * 1 + 1 * (y 0).val = t.val; omega)
    (by show win0_2.index t (1 : Fin 3) * 4096 + 1 * (y 1).val = (y 1).val; omega)
    (by show win0_2.index t (2 : Fin 3) * 256 + 1 * (y 2).val = (y 2).val; omega)]
  exact block_eq (iblk m c 0 t) (iblk m c 1 t) (V m c main_arg0) (V m c main_arg1) (batch t)
    (states_block m c t) (weights_block m c t) y ⟨(y 1).val, hy1⟩ ⟨(y 2).val, hy2⟩ rfl rfl

/-- An index of the result array is in point `t`'s block iff each coordinate is in the block's range on its axis. -/
theorem mem_blk (t : Fin cfg0.N) (i : S32x4096x256.Idx) :
    i ∈ ((cfg0.win 2).blk t).view.set ↔ ∀ a : Fin 3, win0_2.index t a * S1x4096x256.size a ≤ (i a).val
      ∧ (i a).val < win0_2.index t a * S1x4096x256.size a + S1x4096x256.size a := by
  show i ∈ ((View.whole main_v0).slice (win0_2.rect t)).set ↔ _
  rw [View.set_slice_whole, Rect.mem_set_unit]
  exact Iff.rfl

/-- Every index of the result array is in the block of the point its batch coordinate names. -/
theorem cover (i : S32x4096x256.Idx) :
    ∃ t : Fin cfg0.N, (cfg0.win 2).flush t = true ∧ i ∈ ((cfg0.win 2).blk t).view.set := by
  have hi0 : (i 0).val < 32 := (i 0).isLt
  have hi1 : (i 1).val < 4096 := (i 1).isLt
  have hi2 : (i 2).val < 256 := (i 2).isLt
  have hN : cfg0.N = 32 := N_0
  obtain ⟨t, ht⟩ : ∃ t : Fin cfg0.N, t.val = (i 0).val := ⟨⟨(i 0).val, by omega⟩, rfl⟩
  obtain ⟨-, -, -, -, -, -, e0, e1, e2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 4096 ≤ (i 1).val ∧ (i 1).val < win0_2.index t (1 : Fin 3) * 4096 + 4096
    rw [e1]; omega
  | ⟨2, _⟩ =>
    show win0_2.index t (2 : Fin 3) * 256 ≤ (i 2).val ∧ (i 2).val < win0_2.index t (2 : Fin 3) * 256 + 256
    rw [e2]; omega

/-- THE RESULT ARRAY after the run is the window sum of the two arguments. -/
theorem final (c : Dev nD) :
    (dats m 0 c).arrAt 2 cfg0.N
      = windowSum (zKernel (F := F)) (m ((c : Thread nD τ).loc main_arg0)) (m ((c : Thread nD τ).loc main_arg1)) :=
  (dats m 0 c).arrAt_eq_of_cover 2 (windowSum (zKernel (F := F)) (V m c main_arg0) (V m c main_arg1))
    (fun t _ => flushed_eq m c t) cover

/-- The kernel's run with its result named: the window sum of the arguments, which end unchanged. -/
theorem run : θ_run defs (onTc (τ := τ) (main (F := F))) ⟨m, fun _ => 0, ρ⟩ fun r => ∀ c : Dev nD,
      r.2.mem ((c : Thread nD τ).loc main_v0)
        = windowSum (zKernel (F := F)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Window

end
-- ==== Proof.RefWindow.lean ====
/-
  The host program is the window sum.

  The host pads the states with `stablehlo.pad` (five rows low, five high on the row axis, none inside), and
  then, eleven times, multiplies the slice of the padded array that starts at row `i` by column `i` of the weights
  repeated along the last axis, adding the product onto what it has so far, from a zero array. Read at an index
  `(b, r, c)`: the slice is the padded array at row `r + i`, the repeated column is `w[b, r, i]`, so the host's result
  is the window sum with the converted integer zero as padding value.
-/
import proofs.«122439_j21328807592051_1_alg».proof.Proof.Gen.ReferenceIdeal.Read
import proofs.«122439_j21328807592051_1_alg».proof.Proof.WindowSum
import Idealize.ShloMosaic.Lib.KernelVsHost

noncomputable section

namespace Cert.ReferenceIdeal.Window

open Cert.ReferenceIdeal Cert.ReferenceIdeal.Gen Cert.ReferenceIdeal.Read Idealize.ShloMosaic Idealize.ShloMosaic.ValueIdx
open Cert.WindowSum

variable {F : FTy → Type} [FloatOps F]

/-- The host's padding value: the integer zero converted to a float. -/
abbrev zHost : F .f32 := FloatOps.sitofp .f32 (0#32 : BitVec 32)

/-- The host's padded array at an index is the padded row of the window sum: inside rows 5 … 4100 the pad reads the
    states five rows up, outside it reads the padding value. -/
theorem pad_read (x0 : (⟨S32x4096x256, .f32⟩ : BufTy).Contents (Elt F)) (j : S32x4106x256.Idx) (b : Fin 32) (s : Nat)
    (c : Fin 256) (hb : (j 0).val = b.val) (hs : (j 1).val = s) (hc : (j 2).val = c.val) :
    val_main_v0 (F := F) x0 j = padRow (zHost (F := F)) x0 b s c := by
  unfold val_main_v0 padRow
  by_cases h : 5 ≤ s ∧ s < 4101
  · rw [dif_pos h]
    refine pad_apply_of_inside _ _ _ x0 _ _ h_S_ j (ix3 b (⟨s - 5, by omega⟩ : Fin 4096) c) (fun a => ?_)
    match a with
    | ⟨0, _⟩ => show (j 0).val = 0 + b.val * (0 + 1); omega
    | ⟨1, _⟩ => show (j 1).val = 5 + (s - 5) * (0 + 1); omega
    | ⟨2, _⟩ => show (j 2).val = 0 + c.val * (0 + 1); omega
  · rw [dif_neg h]
    refine (pad_apply_of_not_inside _ _ _ x0 _ _ h_S_ j 1 (fun hin => h ?_)).trans rfl
    have h1 : 5 ≤ (j 1).val ∧ ((j 1).val - 5) % (0 + 1) = 0 ∧ ((j 1).val - 5) / (0 + 1) < 4096 := hin
    omega

/-- One product of the host's sum is the window's product: the padded array at a row-shifted index against the
    weights at the index with the window position on the last axis. -/
theorem tap_read (x0 : (⟨S32x4096x256, .f32⟩ : BufTy).Contents (Elt F)) (x1 : (⟨S32x4096x11, .f32⟩ : BufTy).Contents (Elt F))
    (j0 : S32x4106x256.Idx) (j1 : S32x4096x11.Idx) (b : Fin 32) (r : Fin 4096) (c : Fin 256) (i : Fin 11)
    (hb : (j0 0).val = b.val) (hs : (j0 1).val = r.val + i.val) (hc : (j0 2).val = c.val)
    (wb : (j1 0).val = b.val) (wr : (j1 1).val = r.val) (wi : (j1 2).val = i.val) :
    FloatOps.mulf (val_main_v0 (F := F) x0 j0) (x1 j1) = tap (zHost (F := F)) x0 x1 b r c i := by
  unfold tap
  rw [pad_read x0 j0 b (r.val + i.val) c hb hs hc, weight_at x1 j1 b r i wb wr wi]

/-- THE HOST'S RESULT is the window sum of its two arguments. -/
theorem ref_eq (x0 : (⟨S32x4096x256, .f32⟩ : BufTy).Contents (Elt F)) (x1 : (⟨S32x4096x11, .f32⟩ : BufTy).Contents (Elt F)) :
    val_main_v56 (F := F) x0 x1 = windowSum (zHost (F := F)) x0 x1 := by
  funext j
  unfold windowSum windowAt
  rw [val_main_v56_apply, val_main_v55_apply, val_main_v52_apply, val_main_v54_apply, val_main_v53_apply, val_main_v51_apply, val_main_v50_apply, val_main_v47_apply, val_main_v49_apply, val_main_v48_apply, val_main_v46_apply, val_main_v45_apply, val_main_v42_apply, val_main_v44_apply, val_main_v43_apply, val_main_v41_apply, val_main_v40_apply, val_main_v37_apply, val_main_v39_apply, val_main_v38_apply, val_main_v36_apply, val_main_v35_apply, val_main_v32_apply, val_main_v34_apply, val_main_v33_apply, val_main_v31_apply, val_main_v30_apply, val_main_v27_apply, val_main_v29_apply, val_main_v28_apply, val_main_v26_apply, val_main_v25_apply, val_main_v22_apply, val_main_v24_apply, val_main_v23_apply, val_main_v21_apply, val_main_v20_apply, val_main_v17_apply, val_main_v19_apply, val_main_v18_apply, val_main_v16_apply, val_main_v15_apply, val_main_v12_apply, val_main_v14_apply, val_main_v13_apply, val_main_v11_apply, val_main_v10_apply, val_main_v7_apply, val_main_v9_apply, val_main_v8_apply, val_main_v6_apply, val_main_v5_apply, val_main_v2_apply, val_main_v4_apply, val_main_v3_apply, val_main_v1_apply, val_main_cst_apply]
  rw [tap_read x0 x1 (idx_main_v2 j) (idx_main_v3 (idx_main_v4 j)) (j 0) (j 1) (j 2) ⟨0, by omega⟩ rfl (by show (j 1).val = (j 1).val + 0; omega) rfl rfl rfl rfl,
    tap_read x0 x1 (idx_main_v7 j) (idx_main_v8 (idx_main_v9 j)) (j 0) (j 1) (j 2) ⟨1, by omega⟩ rfl (by show 1 + (j 1).val = (j 1).val + 1; omega) rfl rfl rfl rfl,
    tap_read x0 x1 (idx_main_v12 j) (idx_main_v13 (idx_main_v14 j)) (j 0) (j 1) (j 2) ⟨2, by omega⟩ rfl (by show 2 + (j 1).val = (j 1).val + 2; omega) rfl rfl rfl rfl,
    tap_read x0 x1 (idx_main_v17 j) (idx_main_v18 (idx_main_v19 j)) (j 0) (j 1) (j 2) ⟨3, by omega⟩ rfl (by show 3 + (j 1).val = (j 1).val + 3; omega) rfl rfl rfl rfl,
    tap_read x0 x1 (idx_main_v22 j) (idx_main_v23 (idx_main_v24 j)) (j 0) (j 1) (j 2) ⟨4, by omega⟩ rfl (by show 4 + (j 1).val = (j 1).val + 4; omega) rfl rfl rfl rfl,
    tap_read x0 x1 (idx_main_v27 j) (idx_main_v28 (idx_main_v29 j)) (j 0) (j 1) (j 2) ⟨5, by omega⟩ rfl (by show 5 + (j 1).val = (j 1).val + 5; omega) rfl rfl rfl rfl,
    tap_read x0 x1 (idx_main_v32 j) (idx_main_v33 (idx_main_v34 j)) (j 0) (j 1) (j 2) ⟨6, by omega⟩ rfl (by show 6 + (j 1).val = (j 1).val + 6; omega) rfl rfl rfl rfl,
    tap_read x0 x1 (idx_main_v37 j) (idx_main_v38 (idx_main_v39 j)) (j 0) (j 1) (j 2) ⟨7, by omega⟩ rfl (by show 7 + (j 1).val = (j 1).val + 7; omega) rfl rfl rfl rfl,
    tap_read x0 x1 (idx_main_v42 j) (idx_main_v43 (idx_main_v44 j)) (j 0) (j 1) (j 2) ⟨8, by omega⟩ rfl (by show 8 + (j 1).val = (j 1).val + 8; omega) rfl rfl rfl rfl,
    tap_read x0 x1 (idx_main_v47 j) (idx_main_v48 (idx_main_v49 j)) (j 0) (j 1) (j 2) ⟨9, by omega⟩ rfl (by show 9 + (j 1).val = (j 1).val + 9; omega) rfl rfl rfl rfl,
    tap_read x0 x1 (idx_main_v52 j) (idx_main_v53 (idx_main_v54 j)) (j 0) (j 1) (j 2) ⟨10, by omega⟩ rfl (by show 10 + (j 1).val = (j 1).val + 10; omega) rfl rfl rfl rfl]

end Cert.ReferenceIdeal.Window

end
-- ==== Proof.lean ====
/-
  The certificate of a sliding-window weighted sum.

  Both programs compute, for states `x : [32, 4096, 256]` and weights `w : [32, 4096, 11]`,

      out[b, r, c] = ((…((0 + pad[b, r + 0, c] · w[b, r, 0]) + pad[b, r + 1, c] · w[b, r, 1]) + …) + pad[b, r + 10, c] · w[b, r, 10]),

  where `pad` is `x` with five zero rows before row 0 and five after row 4095 of every batch. The kernel does it
  one batch per grid point, padding the batch's block by two concatenations; the reference pads the whole array
  with one host `pad` and slices it eleven times. The two sides apply the same multiplications and additions to the
  same entries in the same order, so they are ONE function of the arguments (`Cert.WindowSum.windowSum`, stated over
  any float instance with the padding value a parameter): no law of the extended reals is used and the finiteness of
  the inputs is never opened. The one thing read at the ideal instance is the padding value itself — the kernel
  converts the integer zero on its scalar unit, the host with its own conversion — and there both are the real 0.

  The frames of the two kernel programs are the generated ones, the reference's frame is its generated run with the
  result dropped, and the idealization rewrote nothing, so there is nothing to preserve.
-/
import proofs.«122439_j21328807592051_1_alg».proof.Defs
import proofs.«122439_j21328807592051_1_alg».proof.Proof.Gen.Kernel
import proofs.«122439_j21328807592051_1_alg».proof.Proof.Gen.Kernel.Skeleton
import proofs.«122439_j21328807592051_1_alg».proof.Proof.Gen.Kernel.Launch
import proofs.«122439_j21328807592051_1_alg».proof.Proof.Gen.Kernel.Points
import proofs.«122439_j21328807592051_1_alg».proof.Proof.Gen.Kernel.Frame
import proofs.«122439_j21328807592051_1_alg».proof.Proof.Gen.KernelIdeal
import proofs.«122439_j21328807592051_1_alg».proof.Proof.Gen.KernelIdeal.Skeleton
import proofs.«122439_j21328807592051_1_alg».proof.Proof.Gen.KernelIdeal.Launch
import proofs.«122439_j21328807592051_1_alg».proof.Proof.Gen.KernelIdeal.Points
import proofs.«122439_j21328807592051_1_alg».proof.Proof.Gen.KernelIdeal.Frame
import proofs.«122439_j21328807592051_1_alg».proof.Proof.Gen.KernelIdeal.Value
import proofs.«122439_j21328807592051_1_alg».proof.Proof.Gen.ReferenceIdeal
import proofs.«122439_j21328807592051_1_alg».proof.Proof.Gen.ReferenceIdeal.Run
import proofs.«122439_j21328807592051_1_alg».proof.Proof.Gen.ReferenceIdeal.Read
import proofs.«122439_j21328807592051_1_alg».proof.Proof.Gen.Pre_finite_inputs
import proofs.«122439_j21328807592051_1_alg».proof.Proof.KernelArray
import proofs.«122439_j21328807592051_1_alg».proof.Proof.RefWindow
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the two padding values are one: the integer zero converted, by either unit, is the real 0. -/
theorem pad_values : Cert.KernelIdeal.Window.zKernel (F := Ideal) = Cert.ReferenceIdeal.Window.zHost (F := Ideal) := rfl

/-- From memories agreeing on the arguments both programs end with the window sum of the arguments in their result
    arrays: the kernel by its blocks (one batch each, tiling the array), the reference by its operations read at an
    index, and the two padding values agree at the ideal instance. -/
theorem algebraic : Cert.algebraic_KernelIdeal_ReferenceIdeal := by
  intro m ρ m' ρ' _ hagree
  refine ⟨_, Cert.KernelIdeal.Window.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.Window.ref_eq, (hagree c).1, (hagree c).2,
    ← pad_values]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
